-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  reducesTo_S_S_d : S_.ReducesTo [] S_

variable [Facts]

def fn_part1 {F : FTy → Type} [FloatOps F] (main_arg5 : FVec F S64 .f32) (main_arg6 : FVec F S_ .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S_ .f32 := Host.absf main_arg6
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  main_v27

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) (main_arg6 : FVec F S_ .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1x1 : Shape := ⟨2, ![1, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 89
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S_, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1x1, .f32⟩
  | .hbm, ⟨47, _⟩ => ⟨S100000x128, .bf16⟩
  | .hbm, ⟨48, _⟩ => ⟨S128x128, .bf16⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .bf16⟩
  | .hbm, ⟨69, _⟩ => ⟨S128x64, .bf16⟩
  | .hbm, ⟨70, _⟩ => ⟨S100000x64, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x1, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S100000x64, .f32⟩
  | .local _ .vmem, ⟨0, _⟩ => ⟨S10000x128, .bf16⟩
  | .local _ .vmem, ⟨1, _⟩ => ⟨S10000x128, .bf16⟩
  | .local _ .vmem, ⟨2, _⟩ => ⟨S128x128, .bf16⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S1x1, .f32⟩
  | .local _ .vmem, ⟨9, _⟩ => ⟨S10000x128, .f32⟩
  | .local _ .vmem, ⟨10, _⟩ => ⟨S10000x128, .f32⟩
  | .local _ .vmem, ⟨11, _⟩ => ⟨S10000x128, .bf16⟩
  | .local _ .vmem, ⟨12, _⟩ => ⟨S10000x128, .bf16⟩
  | .local _ .vmem, ⟨13, _⟩ => ⟨S128x64, .bf16⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S1x64, .f32⟩
  | .local _ .vmem, ⟨19, _⟩ => ⟨S1x1, .f32⟩
  | .local _ .vmem, ⟨20, _⟩ => ⟨S10000x64, .f32⟩
  | .local _ .vmem, ⟨21, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S_S1x1 : S_.ShapeCasts S1x1
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .bf16 = 32 ∨ (Rect.block (s := S100000x128) S10000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .bf16 = 32 ∨ (Rect.block (s := S128x64) S128x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_v31) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v30) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 130
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S_, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S100000x128, .f32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .i1⟩
  | 69 => ⟨S100000x128, .f32⟩
  | 70 => ⟨S100000x128, .f32⟩
  | 71 => ⟨S100000x128, .f32⟩
  | 72 => ⟨S100000x64, .f32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S100000, .f32⟩
  | 85 => ⟨S100000, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x64, .f32⟩
  | 114 => ⟨S1700000x1, .f32⟩
  | 115 => ⟨S1700000x64, .f32⟩
  | 116 => ⟨S1700000x64, .f32⟩
  | 117 => ⟨S_, .f32⟩
  | 118 => ⟨S100000x64, .f32⟩
  | 119 => ⟨S1700000x1, .i32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S100000x64, .f32⟩
  | 126 => ⟨S100000x64, .i1⟩
  | 127 => ⟨S100000x64, .f32⟩
  | _ => ⟨S100000x128, .f32⟩

abbrev hbmTy0_1 (i : Nat) : BufTy := match i % 128 with
  | 0 => ⟨S100000x64, .f32⟩
  | 1 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_call2_v0 : Ref sig .tc := ⟨.hbm, 84, rfl⟩
abbrev main_v60 : Ref sig .tc := ⟨.hbm, 85, rfl⟩
abbrev main_c_14 : Ref sig .tc := ⟨.hbm, 86, rfl⟩
abbrev main_v61 : Ref sig .tc := ⟨.hbm, 87, rfl⟩
abbrev main_v62 : Ref sig .tc := ⟨.hbm, 88, rfl⟩
abbrev main_c_15 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_16 : Ref sig .tc := ⟨.hbm, 95, rfl⟩
abbrev main_v68 : Ref sig .tc := ⟨.hbm, 96, rfl⟩
abbrev main_v69 : Ref sig .tc := ⟨.hbm, 97, rfl⟩
abbrev main_c_17 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_18 : Ref sig .tc := ⟨.hbm, 105, rfl⟩
abbrev main_v76 : Ref sig .tc := ⟨.hbm, 106, rfl⟩
abbrev main_v77 : Ref sig .tc := ⟨.hbm, 107, rfl⟩
abbrev main_c_19 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_20 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_21 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result kept. The program is ten segments: host operations, then four launches
  (a row-tiled matrix product, a bias-and-PReLU pass, and both again at the second layer's width) with host operations
  between them. Every weakly fair execution terminates without a fault; at the end every unscoped buffer holds the
  contents of the last boundary of the fold through the segments, so the result buffer holds that boundary's value at
  the result, and the seven argument buffers hold what they were launched with.
-/
import proofs.«160520_j18957985644564_1_alg».proof.Proof.Gen.KernelIdeal.Frame

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents of it and each argument as launched. -/
theorem run_result : θ_run defs (onTc (τ := τ) (main (F := F))) ⟨m, fun _ => 0, ρ⟩ (fun r => ∀ c : Dev nD,
      r.2.mem ((c.tc : Thread nD τ).loc main_v66) = W10 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v66 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Layers

end
-- ==== Proof.Spec.lean ====
/-
  Two graph-convolution layers over 100000 nodes, as whole-array functions at the extended reals.

  A layer multiplies the node features (one row per node) by a weight matrix, lets every node collect, over its
  incoming edges and its self loop, the source's row scaled by the edge's weight 1/sqrt(deg src · deg dst), adds a
  bias to every row and applies PReLU with one shared slope. The collecting step is the same sequence of host
  operations (a gather of rows, a product with the edge weights, a scatter-add at the destinations) in both programs,
  so it never has to be opened; what differs is where the product and the bias-and-PReLU step are computed. This
  module states those two steps entry by entry:

  * `rowsTimes`: entry (r, c) of features · weights is the sum over k of features (r, k) · weights (k, c);
  * `biasPrelu`: entry (r, c) is  y if y ≥ 0 else slope · y,  for  y = z (r, c) + bias c.
-/
import Idealize.ShloMosaic.PureOps.Ideal
import Idealize.ShloMosaic.PureOps.Ideal.Laws
import Idealize.ShloMosaic.Lib.ValueIdx

noncomputable section

namespace Cert.GraphConv

open Idealize.ShloMosaic

/-! ## Indices -/

/-- The entry in `i`'s row and column `k` of a 100000 × 128 array. -/
abbrev inRow (i : (⟨2, ![100000, 128]⟩ : Shape).Idx) (k : Fin 128) : (⟨2, ![100000, 128]⟩ : Shape).Idx := fun a => match a with
  | ⟨0, _⟩ => ⟨(i 0).val, (i 0).isLt⟩
  | ⟨1, _⟩ => ⟨k.val, k.isLt⟩
/-- The same for an index of a 100000 × 64 array (the second layer's output): row of `i`, column `k` of the 128 wide input. -/
abbrev inRow64 (i : (⟨2, ![100000, 64]⟩ : Shape).Idx) (k : Fin 128) : (⟨2, ![100000, 128]⟩ : Shape).Idx := fun a => match a with
  | ⟨0, _⟩ => ⟨(i 0).val, (i 0).isLt⟩
  | ⟨1, _⟩ => ⟨k.val, k.isLt⟩
/-- Row `k`, `i`'s column, of a 128 × 128 weight matrix. -/
abbrev inCol (i : (⟨2, ![100000, 128]⟩ : Shape).Idx) (k : Fin 128) : (⟨2, ![128, 128]⟩ : Shape).Idx := fun a => match a with
  | ⟨0, _⟩ => ⟨k.val, k.isLt⟩
  | ⟨1, _⟩ => ⟨(i 1).val, (i 1).isLt⟩
/-- Row `k`, `i`'s column, of a 128 × 64 weight matrix. -/
abbrev inCol64 (i : (⟨2, ![100000, 64]⟩ : Shape).Idx) (k : Fin 128) : (⟨2, ![128, 64]⟩ : Shape).Idx := fun a => match a with
  | ⟨0, _⟩ => ⟨k.val, k.isLt⟩
  | ⟨1, _⟩ => ⟨(i 1).val, (i 1).isLt⟩
/-- `i`'s column as an index of a bias vector of 128 entries. -/
abbrev colOf (i : (⟨2, ![100000, 128]⟩ : Shape).Idx) : (⟨1, ![128]⟩ : Shape).Idx := fun a => match a with
  | ⟨0, _⟩ => ⟨(i 1).val, (i 1).isLt⟩
/-- `i`'s column as an index of a bias vector of 64 entries. -/
abbrev colOf64 (i : (⟨2, ![100000, 64]⟩ : Shape).Idx) : (⟨1, ![64]⟩ : Shape).Idx := fun a => match a with
  | ⟨0, _⟩ => ⟨(i 1).val, (i 1).isLt⟩

/-! ## The two steps, entry by entry -/

/-- Features (100000 × 128) times weights (128 × 128): each entry a sum of 128 products. -/
def rowsTimes (x : (⟨2, ![100000, 128]⟩ : Shape).Idx → EReal) (w : (⟨2, ![128, 128]⟩ : Shape).Idx → EReal) :
    (⟨2, ![100000, 128]⟩ : Shape).Idx → EReal :=
  fun i => ∑ k : Fin 128, x (inRow i k) * w (inCol i k)

/-- Features (100000 × 128) times weights (128 × 64). -/
def rowsTimes64 (x : (⟨2, ![100000, 128]⟩ : Shape).Idx → EReal) (w : (⟨2, ![128, 64]⟩ : Shape).Idx → EReal) :
    (⟨2, ![100000, 64]⟩ : Shape).Idx → EReal :=
  fun i => ∑ k : Fin 128, x (inRow64 i k) * w (inCol64 i k)

/-- PReLU of one biased entry: `y` where `y ≥ 0`, `slope · y` elsewhere, for `y = z + b`. The comparison is the
    float comparison read at the extended reals, against the value of the zero word. -/
def preluAt (slope z b : EReal) : EReal :=
  Scalar.select (FloatOps.cmpf (F := Ideal) (φ := .f32) .oge (z + b) (Ideal.ofBits .f32 0x00000000#32)) (z + b) (slope * (z + b))

/-- Bias and PReLU over a 100000 × 128 array: the bias indexed by the column. -/
def biasPrelu (z : (⟨2, ![100000, 128]⟩ : Shape).Idx → EReal) (b : (⟨1, ![128]⟩ : Shape).Idx → EReal) (slope : EReal) :
    (⟨2, ![100000, 128]⟩ : Shape).Idx → EReal :=
  fun i => preluAt slope (z i) (b (colOf i))

/-- Bias and PReLU over a 100000 × 64 array. -/
def biasPrelu64 (z : (⟨2, ![100000, 64]⟩ : Shape).Idx → EReal) (b : (⟨1, ![64]⟩ : Shape).Idx → EReal) (slope : EReal) :
    (⟨2, ![100000, 64]⟩ : Shape).Idx → EReal :=
  fun i => preluAt slope (z i) (b (colOf64 i))

end Cert.GraphConv

end
-- ==== Proof.Product1.lean ====
/-
  The first launch: features · weights, ten row blocks of 10000 rows, the 128 × 128 weights resident. Whatever the
  buffers hold when the launch is entered (`V`), the result array ends holding, at entry (r, c), the sum over k of the
  left array at (r, k) times the right array at (k, c): each grid point multiplies its block of rows into a zero
  accumulator, which at the extended reals is the plain sum; point t's block is rows 10000·t … 10000·t + 9999, and the
  ten blocks tile the 100000 rows.
-/
import proofs.«160520_j18957985644564_1_alg».proof.Proof.Gen.KernelIdeal.Frame
import proofs.«160520_j18957985644564_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Layers

open Idealize.ShloMosaic Idealize.ShloMosaic.TcCoe Idealize.SL.Sem
open Idealize.ShloMosaic.Pipeline (Dat Cfg Window)
open Cert.KernelIdeal Cert.KernelIdeal.Gen Cert.GraphConv

/-- The printed zero offsets are the zero function. -/
theorem zeros2 : (![0, 0] : Fin 2 → Nat) = fun _ => 0 := funext fun a => by fin_cases a <;> rfl

/-! ## One block's product at an entry -/

/-- The block product's dimension numbers: rows × 128 times 128 × columns, one contracted axis. -/
abbrev D0 : DotDims S10000x128 S128x128 S10000x128 := dot_S10000x128_S128x128_S10000x128_1_0_0_1_n_n

/-- Entry (row of `j`, k) of a block of rows. -/
abbrev blockRow0 (j : S10000x128.Idx) (k : Fin 128) : S10000x128.Idx := fun a => match a with
  | ⟨0, _⟩ => ⟨(j 0).val, (j 0).isLt⟩
  | ⟨1, _⟩ => ⟨k.val, k.isLt⟩
/-- Entry (k, column of `j`) of the weights. -/
abbrev blockCol0 (j : S10000x128.Idx) (k : Fin 128) : S128x128.Idx := fun a => match a with
  | ⟨0, _⟩ => ⟨k.val, k.isLt⟩
  | ⟨1, _⟩ => ⟨(j 1).val, (j 1).isLt⟩

theorem lhs0_0 (j : S10000x128.Idx) (q : D0.contr.Idx) : (D0.lhsIdx j q 0).val = (j 0).val := by
  unfold DotDims.lhsIdx
  rw [dif_neg (show ¬(0 : Fin S10000x128.rank) ∈ D0.lhsBatch by decide), dif_pos (show (0 : Fin S10000x128.rank) ∈ D0.lhsNonContracting by decide)]
  rfl
theorem lhs0_1 (j : S10000x128.Idx) (q : D0.contr.Idx) : (D0.lhsIdx j q 1).val = (q ⟨0, by decide⟩).val :=
  D0.lhsIdx_val_of_single rfl j q
theorem rhs0_0 (j : S10000x128.Idx) (q : D0.contr.Idx) : (D0.rhsIdx j q 0).val = (q ⟨0, by decide⟩).val :=
  D0.rhsIdx_val_of_single rfl j q
theorem rhs0_1 (j : S10000x128.Idx) (q : D0.contr.Idx) : (D0.rhsIdx j q 1).val = (j 1).val := by
  unfold DotDims.rhsIdx
  rw [dif_neg (show ¬(1 : Fin S128x128.rank) ∈ D0.rhsBatch by decide), dif_pos (show (1 : Fin S128x128.rank) ∈ D0.rhsNonContracting by decide)]
  rfl

/-- The body's stored value at an entry: the product accumulated into zero is the sum of the 128 products. -/
theorem product_block0 (x0 : S10000x128.Idx → EReal) (x1 : S128x128.Idx → EReal) (j : S10000x128.Idx) :
    k0_pay1 (F := Ideal) x0 x1 j = ∑ k : Fin 128, x0 (blockRow0 j k) * x1 (blockCol0 j k) := by
  unfold k0_pay1
  simp only [matmul, shapeCast_self]
  rw [Ideal.matmul_constant_zero_apply, ← Equiv.sum_comp (ValueIdx.contrEquiv1 D0 128 rfl rfl).symm]
  refine Finset.sum_congr rfl fun k _ => ?_
  have hk := ValueIdx.contrEquiv1_symm_val D0 128 rfl rfl k
  have el : D0.lhsIdx j ((ValueIdx.contrEquiv1 D0 128 rfl rfl).symm k) = blockRow0 j k := funext fun a => Fin.ext (by
    match a with
    | ⟨0, _⟩ => exact lhs0_0 _ _
    | ⟨1, _⟩ => exact (lhs0_1 _ _).trans hk)
  have er : D0.rhsIdx j ((ValueIdx.contrEquiv1 D0 128 rfl rfl).symm k) = blockCol0 j k := funext fun a => Fin.ext (by
    match a with
    | ⟨0, _⟩ => exact (rhs0_0 _ _).trans hk
    | ⟨1, _⟩ => exact rhs0_1 _ _)
  rw [el, er]

/-! ## What a point writes back, and the cover -/

variable (V : (c : Dev nD) → (b : Ref sig .tc) → Buf (Elt Ideal) ((c : Thread nD τ).loc b))

/-- The left array the launch finds (the converted features), as a plain function of its index. -/
abbrev leftIn0 (c : Dev nD) : S100000x128.Idx → EReal := V c main_v31
/-- The right array the launch finds (the converted weights). -/
abbrev rightIn0 (c : Dev nD) : S128x128.Idx → EReal := V c main_v32

/-- The printed index maps over the ten points: the left window moves with the output's rows, its column block and
    both of the weights' block indices are zero, and so is the output's column block. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block is some point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- Point `t` writes back its block of the whole product. -/
theorem flushed0_eq (c : Dev nD) (t : Fin cfg0.N) :
    (dat0 V c).flushed 2 t = ((cfg0.win 2).blk t).view.read (Elt Ideal) (rowsTimes (leftIn0 V c) (rightIn0 V c)) := by
  show (cfg0.win 2).cut (grid0.coords t) ((dat0 V c).after 2 t) = _
  rw [after0_2]
  unfold out0_2
  rw [View.canon_unit_zero zeros2]
  simp only [View.ld_unit_zero (S := S10000x128) zeros2, View.ld_unit_zero (S := S128x128) zeros2]
  obtain ⟨e0, e1, e2, e3, e4, e5⟩ := idx_facts0 t
  funext j
  refine (product_block0 _ _ j).trans ?_
  show ∑ k : Fin 128, leftIn0 V c (((cfg0.win 0).blk t).view.emb (blockRow0 j k)) * rightIn0 V c (((cfg0.win 1).blk t).view.emb (blockCol0 j k))
    = ∑ k : Fin 128, leftIn0 V c (inRow (((cfg0.win 2).blk t).view.emb j) k) * rightIn0 V c (inCol (((cfg0.win 2).blk t).view.emb j) k)
  refine Finset.sum_congr rfl fun k _ => ?_
  have h0 : ((cfg0.win 0).blk t).view.emb (blockRow0 j k) = inRow (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (blockCol0 j k) = inCol (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v33).slice (win0_2.rect t)).set ↔ _
  rw [View.set_slice_whole, Rect.mem_set_unit]
  exact Iff.rfl

/-- Row r lies in the block of the point whose row block is r / 10000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- THE ARRAY after the launch: the whole product of the two arrays the launch found. -/
theorem final0 (c : Dev nD) : (dat0 V c).arrAt 2 cfg0.N = rowsTimes (leftIn0 V c) (rightIn0 V c) :=
  (dat0 V c).arrAt_eq_of_cover 2 _ (fun t _ => flushed0_eq V c t) cover0

end Cert.KernelIdeal.Layers

end
-- ==== Proof.Activation1.lean ====
/-
  The second launch: bias and PReLU over the aggregated features, ten row blocks of 10000 rows; the bias (one row of
  128) and the slope (a 1 × 1 array) are resident. Whatever the buffers hold when the launch is entered (`V`), the
  result array ends holding, at entry (r, c), PReLU with the slope at (0, 0) of the input at (r, c) plus the bias row at
  (0, c): the body is elementwise, so point t's block of the result is that function of point t's block of the input.
-/
import proofs.«160520_j18957985644564_1_alg».proof.Proof.Gen.KernelIdeal.Frame
import proofs.«160520_j18957985644564_1_alg».proof.Proof.Spec
import Idealize.ShloMosaic.Lib.Pipeline.Value
import Idealize.ShloMosaic.Lib.ValueIdx

set_option maxRecDepth 16384

noncomputable section

namespace Cert.KernelIdeal.Layers

open Idealize.ShloMosaic Idealize.ShloMosaic.TcCoe Idealize.SL.Sem
open Idealize.ShloMosaic.Pipeline (Dat Cfg Window)
open Cert.KernelIdeal Cert.KernelIdeal.Gen Cert.GraphConv

/-- The printed zero offsets are the zero function. -/
theorem zeros2' : (![0, 0] : Fin 2 → Nat) = fun _ => 0 := funext fun a => by fin_cases a <;> rfl

/-! ## The body at an entry -/

/-- The one index of a 1 × 1 array. -/
abbrev origin11 : S1x1.Idx := fun a => ⟨![0, 0] a, inpos_S1x1_p0_0 a⟩
/-- Entry (0, column of `j`) of the bias row. -/
abbrev biasAt (j : S10000x128.Idx) : S1x128.Idx := fun a => match a with
  | ⟨0, _⟩ => ⟨0, Nat.one_pos⟩
  | ⟨1, _⟩ => ⟨(j 1).val, (j 1).isLt⟩
/-- Entry (0, c) of a one-row array of 128 columns, from an index of a vector of 128 entries. -/
abbrev atRow0 (q : (⟨1, ![128]⟩ : Shape).Idx) : S1x128.Idx := fun a => match a with
  | ⟨0, _⟩ => ⟨0, Nat.one_pos⟩
  | ⟨1, _⟩ => ⟨(q 0).val, (q 0).isLt⟩

/-- The body's stored value at an entry is PReLU of the biased entry. -/
theorem act_block1 (a0 : S1x1.Idx → EReal) (z : S10000x128.Idx → EReal) (b : S1x128.Idx → EReal) (j : S10000x128.Idx) :
    k1_pay1 (F := Ideal) a0 z b j = preluAt (a0 origin11) (z j) (b (biasAt j)) := by
  unfold k1_pay1 preluAt
  simp only [shapeCast_self, ValueIdx.select_apply, ValueIdx.cmpf_apply, ValueIdx.addf_apply, ValueIdx.mulf_apply, ValueIdx.broadcast_apply]
  rw [broadcastTo_apply b broadcasts_S1x128_S10000x128 j (biasAt j) (fun a => match a with
    | ⟨0, _⟩ => by show 0 = if (1 : Nat) = 1 then 0 else _; rw [if_pos rfl]
    | ⟨1, _⟩ => by show (j 1).val = if (128 : Nat) = 1 then 0 else (j 1).val; rw [if_neg (by decide)])]
  rfl

/-! ## What a point writes back, and the cover -/

variable (V : (c : Dev nD) → (b : Ref sig .tc) → Buf (Elt Ideal) ((c : Thread nD τ).loc b))

/-- The array the launch finds (the collected features), as a plain function of its index. -/
abbrev actIn1 (c : Dev nD) : S100000x128.Idx → EReal := V c main_v46
/-- The bias row it finds. -/
abbrev biasIn1 (c : Dev nD) : S1x128.Idx → EReal := V c main_v47
/-- The slope's 1 × 1 array it finds. -/
abbrev slopeIn1 (c : Dev nD) : S1x1.Idx → EReal := V c main_v30

/-- The printed index maps over the ten points: the input window moves with the output's rows; every other block index
    is zero. -/
theorem idx_facts1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 9 :=
  (by decide +kernel : ∀ t : Fin grid1.N, _)

/-- Every row block is some point's. -/
theorem idx_onto1 : ∀ q0 : Fin 10, ∃ t : Fin cfg1.N, win1_3.index t = ![q0.val, 0] :=
  (by decide +kernel : ∀ q0 : Fin 10, ∃ t : Fin grid1.N, win1_3.index t = ![q0.val, 0])

/-- Point `t` writes back its block of the whole bias-and-PReLU array. -/
theorem flushed1_eq (c : Dev nD) (t : Fin cfg1.N) :
    (dat1 V c).flushed 3 t = ((cfg1.win 3).blk t).view.read (Elt Ideal)
      (biasPrelu (actIn1 V c) (fun q => biasIn1 V c (atRow0 q)) (slopeIn1 V c origin11)) := by
  show (cfg1.win 3).cut (grid1.coords t) ((dat1 V c).after 3 t) = _
  rw [after1_3]
  unfold out1_3
  rw [View.canon_unit_zero zeros2']
  simp only [View.ld_unit_zero (S := S10000x128) zeros2', View.ld_unit_zero (S := S1x128) zeros2', View.ld_unit_zero (S := S1x1) zeros2']
  obtain ⟨e0, e1, e2, e3, e4, e5, e6, e7⟩ := idx_facts1 t
  funext j
  refine (act_block1 _ _ _ j).trans ?_
  show preluAt (slopeIn1 V c (((cfg1.win 2).blk t).view.emb origin11)) (actIn1 V c (((cfg1.win 0).blk t).view.emb j))
      (biasIn1 V c (((cfg1.win 1).blk t).view.emb (biasAt j)))
    = preluAt (slopeIn1 V c origin11) (actIn1 V c (((cfg1.win 3).blk t).view.emb j))
      (biasIn1 V c (atRow0 (colOf (((cfg1.win 3).blk t).view.emb j))))
  have h0 : ((cfg1.win 0).blk t).view.emb j = ((cfg1.win 3).blk t).view.emb j := by
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb (biasAt j) = atRow0 (colOf (((cfg1.win 3).blk t).view.emb j)) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_3.index t (1 : Fin 2) * 128 + 1 * (j 1).val; omega
  have h2 : ((cfg1.win 2).blk t).view.emb origin11 = origin11 := by
    funext a; apply Fin.ext
    match a with
    | ⟨0, _⟩ => show win1_2.index t (0 : Fin 2) * 1 + 1 * 0 = 0; omega
    | ⟨1, _⟩ => show win1_2.index t (1 : Fin 2) * 1 + 1 * 0 = 0; omega
  rw [h0, h1, h2]

/-- An index of the array is in point `t`'s block iff each coordinate is in the block's range on its axis. -/
theorem mem_blk1 (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v48).slice (win1_3.rect t)).set ↔ _
  rw [View.set_slice_whole, Rect.mem_set_unit]
  exact Iff.rfl

/-- Row r lies in the block of the point whose row block is r / 10000. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto1 ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- THE ARRAY after the launch: bias and PReLU of the input array the launch found, with the bias row and the slope it found. -/
theorem final1 (c : Dev nD) : (dat1 V c).arrAt 3 cfg1.N
    = biasPrelu (actIn1 V c) (fun q => biasIn1 V c (atRow0 q)) (slopeIn1 V c origin11) :=
  (dat1 V c).arrAt_eq_of_cover 3 _ (fun t _ => flushed1_eq V c t) cover1

end Cert.KernelIdeal.Layers

end
-- ==== Proof.Product2.lean ====
/-
  The third launch: the second layer's features · weights, ten row blocks of 10000 rows, the 128 × 64 weights resident.
  As for the first layer's product: whatever the buffers hold when the launch is entered (`V`), the result array ends
  holding, at entry (r, c), the sum over k of the left array at (r, k) times the right array at (k, c); point t's block
  is rows 10000·t … 10000·t + 9999 of all 64 columns, and the ten blocks tile the 100000 rows.
-/
import proofs.«160520_j18957985644564_1_alg».proof.Proof.Gen.KernelIdeal.Frame
import proofs.«160520_j18957985644564_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Layers

open Idealize.ShloMosaic Idealize.ShloMosaic.TcCoe Idealize.SL.Sem
open Idealize.ShloMosaic.Pipeline (Dat Cfg Window)
open Cert.KernelIdeal Cert.KernelIdeal.Gen Cert.GraphConv

/-- The printed zero offsets are the zero function. -/
theorem zeros2'' : (![0, 0] : Fin 2 → Nat) = fun _ => 0 := funext fun a => by fin_cases a <;> rfl

/-! ## One block's product at an entry -/

/-- The block product's dimension numbers: rows × 128 times 128 × columns, one contracted axis. -/
abbrev D2 : DotDims S10000x128 S128x64 S10000x64 := dot_S10000x128_S128x64_S10000x64_1_0_0_1_n_n

/-- Entry (row of `j`, k) of a block of rows. -/
abbrev blockRow2 (j : S10000x64.Idx) (k : Fin 128) : S10000x128.Idx := fun a => match a with
  | ⟨0, _⟩ => ⟨(j 0).val, (j 0).isLt⟩
  | ⟨1, _⟩ => ⟨k.val, k.isLt⟩
/-- Entry (k, column of `j`) of the weights. -/
abbrev blockCol2 (j : S10000x64.Idx) (k : Fin 128) : S128x64.Idx := fun a => match a with
  | ⟨0, _⟩ => ⟨k.val, k.isLt⟩
  | ⟨1, _⟩ => ⟨(j 1).val, (j 1).isLt⟩

theorem lhs2_0 (j : S10000x64.Idx) (q : D2.contr.Idx) : (D2.lhsIdx j q 0).val = (j 0).val := by
  unfold DotDims.lhsIdx
  rw [dif_neg (show ¬(0 : Fin S10000x128.rank) ∈ D2.lhsBatch by decide), dif_pos (show (0 : Fin S10000x128.rank) ∈ D2.lhsNonContracting by decide)]
  rfl
theorem lhs2_1 (j : S10000x64.Idx) (q : D2.contr.Idx) : (D2.lhsIdx j q 1).val = (q ⟨0, by decide⟩).val :=
  D2.lhsIdx_val_of_single rfl j q
theorem rhs2_0 (j : S10000x64.Idx) (q : D2.contr.Idx) : (D2.rhsIdx j q 0).val = (q ⟨0, by decide⟩).val :=
  D2.rhsIdx_val_of_single rfl j q
theorem rhs2_1 (j : S10000x64.Idx) (q : D2.contr.Idx) : (D2.rhsIdx j q 1).val = (j 1).val := by
  unfold DotDims.rhsIdx
  rw [dif_neg (show ¬(1 : Fin S128x64.rank) ∈ D2.rhsBatch by decide), dif_pos (show (1 : Fin S128x64.rank) ∈ D2.rhsNonContracting by decide)]
  rfl

/-- The body's stored value at an entry: the product accumulated into zero is the sum of the 128 products. -/
theorem product_block2 (x0 : S10000x128.Idx → EReal) (x1 : S128x64.Idx → EReal) (j : S10000x64.Idx) :
    k2_pay1 (F := Ideal) x0 x1 j = ∑ k : Fin 128, x0 (blockRow2 j k) * x1 (blockCol2 j k) := by
  unfold k2_pay1
  simp only [matmul, shapeCast_self]
  rw [Ideal.matmul_constant_zero_apply, ← Equiv.sum_comp (ValueIdx.contrEquiv1 D2 128 rfl rfl).symm]
  refine Finset.sum_congr rfl fun k _ => ?_
  have hk := ValueIdx.contrEquiv1_symm_val D2 128 rfl rfl k
  have el : D2.lhsIdx j ((ValueIdx.contrEquiv1 D2 128 rfl rfl).symm k) = blockRow2 j k := funext fun a => Fin.ext (by
    match a with
    | ⟨0, _⟩ => exact lhs2_0 _ _
    | ⟨1, _⟩ => exact (lhs2_1 _ _).trans hk)
  have er : D2.rhsIdx j ((ValueIdx.contrEquiv1 D2 128 rfl rfl).symm k) = blockCol2 j k := funext fun a => Fin.ext (by
    match a with
    | ⟨0, _⟩ => exact (rhs2_0 _ _).trans hk
    | ⟨1, _⟩ => exact rhs2_1 _ _)
  rw [el, er]

/-! ## What a point writes back, and the cover -/

variable (V : (c : Dev nD) → (b : Ref sig .tc) → Buf (Elt Ideal) ((c : Thread nD τ).loc b))

/-- The left array the launch finds (the converted first layer's output), as a plain function of its index. -/
abbrev leftIn2 (c : Dev nD) : S100000x128.Idx → EReal := V c main_v49
/-- The right array the launch finds (the converted second weights). -/
abbrev rightIn2 (c : Dev nD) : S128x64.Idx → EReal := V c main_v50

/-- The printed index maps over the ten points: the left window moves with the output's rows, its column block and
    both of the weights' block indices are zero, and so is the output's column block. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every row block is some point's. -/
theorem idx_onto2 : ∀ q0 : Fin 10, ∃ t : Fin cfg2.N, win2_2.index t = ![q0.val, 0] :=
  (by decide +kernel : ∀ q0 : Fin 10, ∃ t : Fin grid2.N, win2_2.index t = ![q0.val, 0])

/-- Point `t` writes back its block of the whole product. -/
theorem flushed2_eq (c : Dev nD) (t : Fin cfg2.N) :
    (dat2 V c).flushed 2 t = ((cfg2.win 2).blk t).view.read (Elt Ideal) (rowsTimes64 (leftIn2 V c) (rightIn2 V c)) := by
  show (cfg2.win 2).cut (grid2.coords t) ((dat2 V c).after 2 t) = _
  rw [after2_2]
  unfold out2_2
  rw [View.canon_unit_zero zeros2'']
  simp only [View.ld_unit_zero (S := S10000x128) zeros2'', View.ld_unit_zero (S := S128x64) zeros2'']
  obtain ⟨e0, e1, e2, e3, e4, e5⟩ := idx_facts2 t
  funext j
  refine (product_block2 _ _ j).trans ?_
  show ∑ k : Fin 128, leftIn2 V c (((cfg2.win 0).blk t).view.emb (blockRow2 j k)) * rightIn2 V c (((cfg2.win 1).blk t).view.emb (blockCol2 j k))
    = ∑ k : Fin 128, leftIn2 V c (inRow64 (((cfg2.win 2).blk t).view.emb j) k) * rightIn2 V c (inCol64 (((cfg2.win 2).blk t).view.emb j) k)
  refine Finset.sum_congr rfl fun k _ => ?_
  have h0 : ((cfg2.win 0).blk t).view.emb (blockRow2 j k) = inRow64 (((cfg2.win 2).blk t).view.emb j) k := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * k.val = k.val; omega
  have h1 : ((cfg2.win 1).blk t).view.emb (blockCol2 j k) = inCol64 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  rw [h0, h1]

/-- An index of the array is in point `t`'s block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v51).slice (win2_2.rect t)).set ↔ _
  rw [View.set_slice_whole, Rect.mem_set_unit]
  exact Iff.rfl

/-- Row r lies in the block of the point whose row block is r / 10000. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- THE ARRAY after the launch: the whole product of the two arrays the launch found. -/
theorem final2 (c : Dev nD) : (dat2 V c).arrAt 2 cfg2.N = rowsTimes64 (leftIn2 V c) (rightIn2 V c) :=
  (dat2 V c).arrAt_eq_of_cover 2 _ (fun t _ => flushed2_eq V c t) cover2

end Cert.KernelIdeal.Layers

end
-- ==== Proof.Activation2.lean ====
/-
  The fourth launch: the second layer's bias and PReLU, ten row blocks of 10000 rows of 64 columns; the bias (one row of
  64) and the slope (the same 1 × 1 array as in the first layer) are resident. As for the first layer: whatever the
  buffers hold when the launch is entered (`V`), the result array ends holding, at entry (r, c), PReLU with the slope at
  (0, 0) of the input at (r, c) plus the bias row at (0, c).
-/
import proofs.«160520_j18957985644564_1_alg».proof.Proof.Gen.KernelIdeal.Frame
import proofs.«160520_j18957985644564_1_alg».proof.Proof.Spec
import Idealize.ShloMosaic.Lib.Pipeline.Value
import Idealize.ShloMosaic.Lib.ValueIdx

set_option maxRecDepth 16384

noncomputable section

namespace Cert.KernelIdeal.Layers

open Idealize.ShloMosaic Idealize.ShloMosaic.TcCoe Idealize.SL.Sem
open Idealize.ShloMosaic.Pipeline (Dat Cfg Window)
open Cert.KernelIdeal Cert.KernelIdeal.Gen Cert.GraphConv

/-- The printed zero offsets are the zero function. -/
theorem zeros2''' : (![0, 0] : Fin 2 → Nat) = fun _ => 0 := funext fun a => by fin_cases a <;> rfl

/-! ## The body at an entry -/

/-- The one index of a 1 × 1 array. -/
abbrev origin11b : S1x1.Idx := fun a => ⟨![0, 0] a, inpos_S1x1_p0_0 a⟩
/-- Entry (0, column of `j`) of the bias row. -/
abbrev biasAt64 (j : S10000x64.Idx) : S1x64.Idx := fun a => match a with
  | ⟨0, _⟩ => ⟨0, Nat.one_pos⟩
  | ⟨1, _⟩ => ⟨(j 1).val, (j 1).isLt⟩
/-- Entry (0, c) of a one-row array of 64 columns, from an index of a vector of 64 entries. -/
abbrev atRow0b (q : (⟨1, ![64]⟩ : Shape).Idx) : S1x64.Idx := fun a => match a with
  | ⟨0, _⟩ => ⟨0, Nat.one_pos⟩
  | ⟨1, _⟩ => ⟨(q 0).val, (q 0).isLt⟩

/-- The body's stored value at an entry is PReLU of the biased entry. -/
theorem act_block3 (a0 : S1x1.Idx → EReal) (z : S10000x64.Idx → EReal) (b : S1x64.Idx → EReal) (j : S10000x64.Idx) :
    k3_pay1 (F := Ideal) a0 z b j = preluAt (a0 origin11b) (z j) (b (biasAt64 j)) := by
  unfold k3_pay1 preluAt
  simp only [shapeCast_self, ValueIdx.select_apply, ValueIdx.cmpf_apply, ValueIdx.addf_apply, ValueIdx.mulf_apply, ValueIdx.broadcast_apply]
  rw [broadcastTo_apply b broadcasts_S1x64_S10000x64 j (biasAt64 j) (fun a => match a with
    | ⟨0, _⟩ => by show 0 = if (1 : Nat) = 1 then 0 else _; rw [if_pos rfl]
    | ⟨1, _⟩ => by show (j 1).val = if (64 : Nat) = 1 then 0 else (j 1).val; rw [if_neg (by decide)])]
  rfl

/-! ## What a point writes back, and the cover -/

variable (V : (c : Dev nD) → (b : Ref sig .tc) → Buf (Elt Ideal) ((c : Thread nD τ).loc b))

/-- The array the launch finds (the collected second-layer features), as a plain function of its index. -/
abbrev actIn3 (c : Dev nD) : S100000x64.Idx → EReal := V c main_v64
/-- The bias row it finds. -/
abbrev biasIn3 (c : Dev nD) : S1x64.Idx → EReal := V c main_v65
/-- The slope's 1 × 1 array it finds. -/
abbrev slopeIn3 (c : Dev nD) : S1x1.Idx → EReal := V c main_v30

/-- The printed index maps over the ten points: the input window moves with the output's rows; every other block index
    is zero. -/
theorem idx_facts3 : ∀ t : Fin cfg3.N, win3_0.index t (0 : Fin 2) = win3_3.index t (0 : Fin 2)
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (1 : Fin 2) = 0
    ∧ win3_3.index t (0 : Fin 2) ≤ 9 :=
  (by decide +kernel : ∀ t : Fin grid3.N, _)

/-- Every row block is some point's. -/
theorem idx_onto3 : ∀ q0 : Fin 10, ∃ t : Fin cfg3.N, win3_3.index t = ![q0.val, 0] :=
  (by decide +kernel : ∀ q0 : Fin 10, ∃ t : Fin grid3.N, win3_3.index t = ![q0.val, 0])

/-- Point `t` writes back its block of the whole bias-and-PReLU array. -/
theorem flushed3_eq (c : Dev nD) (t : Fin cfg3.N) :
    (dat3 V c).flushed 3 t = ((cfg3.win 3).blk t).view.read (Elt Ideal)
      (biasPrelu64 (actIn3 V c) (fun q => biasIn3 V c (atRow0b q)) (slopeIn3 V c origin11b)) := by
  show (cfg3.win 3).cut (grid3.coords t) ((dat3 V c).after 3 t) = _
  rw [after3_3]
  unfold out3_3
  rw [View.canon_unit_zero zeros2''']
  simp only [View.ld_unit_zero (S := S10000x64) zeros2''', View.ld_unit_zero (S := S1x64) zeros2''', View.ld_unit_zero (S := S1x1) zeros2''']
  obtain ⟨e0, e1, e2, e3, e4, e5, e6, e7⟩ := idx_facts3 t
  funext j
  refine (act_block3 _ _ _ j).trans ?_
  show preluAt (slopeIn3 V c (((cfg3.win 2).blk t).view.emb origin11b)) (actIn3 V c (((cfg3.win 0).blk t).view.emb j))
      (biasIn3 V c (((cfg3.win 1).blk t).view.emb (biasAt64 j)))
    = preluAt (slopeIn3 V c origin11b) (actIn3 V c (((cfg3.win 3).blk t).view.emb j))
      (biasIn3 V c (atRow0b (colOf64 (((cfg3.win 3).blk t).view.emb j))))
  have h0 : ((cfg3.win 0).blk t).view.emb j = ((cfg3.win 3).blk t).view.emb j := by
    funext a; apply Fin.ext
    match a with
    | ⟨0, _⟩ => show win3_0.index t (0 : Fin 2) * 10000 + 1 * (j 0).val = win3_3.index t (0 : Fin 2) * 10000 + 1 * (j 0).val; omega
    | ⟨1, _⟩ => show win3_0.index t (1 : Fin 2) * 64 + 1 * (j 1).val = win3_3.index t (1 : Fin 2) * 64 + 1 * (j 1).val; omega
  have h1 : ((cfg3.win 1).blk t).view.emb (biasAt64 j) = atRow0b (colOf64 (((cfg3.win 3).blk t).view.emb j)) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_3.index t (1 : Fin 2) * 64 + 1 * (j 1).val; omega
  have h2 : ((cfg3.win 2).blk t).view.emb origin11b = origin11b := by
    funext a; apply Fin.ext
    match a with
    | ⟨0, _⟩ => show win3_2.index t (0 : Fin 2) * 1 + 1 * 0 = 0; omega
    | ⟨1, _⟩ => show win3_2.index t (1 : Fin 2) * 1 + 1 * 0 = 0; omega
  rw [h0, h1, h2]

/-- An index of the array is in point `t`'s block iff each coordinate is in the block's range on its axis. -/
theorem mem_blk3 (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v66).slice (win3_3.rect t)).set ↔ _
  rw [View.set_slice_whole, Rect.mem_set_unit]
  exact Iff.rfl

/-- Row r lies in the block of the point whose row block is r / 10000. -/
theorem cover3 (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ := idx_onto3 ⟨(i 0).val / 10000, by omega⟩
  have q0 : win3_3.index t (0 : Fin 2) = (i 0).val / 10000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 64 ≤ (i 1).val ∧ (i 1).val < win3_3.index t (1 : Fin 2) * 64 + 64; omega

/-- THE ARRAY after the launch: bias and PReLU of the input array the launch found, with the bias row and the slope it found. -/
theorem final3 (c : Dev nD) : (dat3 V c).arrAt 3 cfg3.N
    = biasPrelu64 (actIn3 V c) (fun q => biasIn3 V c (atRow0b q)) (slopeIn3 V c origin11b) :=
  (dat3 V c).arrAt_eq_of_cover 3 _ (fun t _ => flushed3_eq V c t) cover3

end Cert.KernelIdeal.Layers

end
-- ==== Proof.RefLayers.lean ====
/-
  The reference, read as the two layers. Its term is, stage by stage: the product features · weights (a host
  `dot_general`, at the extended reals the sum over the contracted index), the collecting step, bias and PReLU, and the
  same three again at the second layer's width. The collecting step is named here once per width as ONE function of the
  edge list and of the array it spreads: a gather of the source rows, a product with the edge weights, a scatter-add at
  the destinations, with the index and weight operands the reference's own stages of the edge list. The kernel's program
  applies the same host operations, so the step is never opened.
-/
import proofs.«160520_j18957985644564_1_alg».proof.Proof.RefRead
import proofs.«160520_j18957985644564_1_alg».proof.Proof.Spec

noncomputable section

namespace Cert.GraphConv

open Idealize.ShloMosaic Idealize.SL.Sem
open Cert.ReferenceIdeal Cert.ReferenceIdeal.ReadP

/-! ## The collecting step -/

/-- Every node collects its incoming edges' source rows of `h` (128 wide), each scaled by the edge's weight. -/
def collect (e : (⟨S2x1600000, .i32⟩ : BufTy).Contents (Elt Ideal)) (h : (⟨S100000x128, .f32⟩ : BufTy).Contents (Elt Ideal)) :
    (⟨S100000x128, .f32⟩ : BufTy).Contents (Elt Ideal) :=
  Host.scatterAdd (F := Ideal) (φ := .f32) scatter_S100000x128_S1700000x1_S1700000x128_1_0_0_1 (val_main_v41 (F := Ideal)) (val_main_v42 (F := Ideal) e)
    (mulf (F := Ideal) (φ := .f32) (Host.gather gather_S100000x128_S1700000x1_S1700000x128_1_0_n_n_0_1_1128 h (val_main_v36 (F := Ideal) e))
      (val_main_v39 (F := Ideal) e))

/-- The same over rows 64 wide. -/
def collect64 (e : (⟨S2x1600000, .i32⟩ : BufTy).Contents (Elt Ideal)) (h : (⟨S100000x64, .f32⟩ : BufTy).Contents (Elt Ideal)) :
    (⟨S100000x64, .f32⟩ : BufTy).Contents (Elt Ideal) :=
  Host.scatterAdd (F := Ideal) (φ := .f32) scatter_S100000x64_S1700000x1_S1700000x64_1_0_0_1 (val_main_v86 (F := Ideal)) (val_main_v87 (F := Ideal) e)
    (mulf (F := Ideal) (φ := .f32) (Host.gather gather_S100000x64_S1700000x1_S1700000x64_1_0_n_n_0_1_164 h (val_main_v81 (F := Ideal) e))
      (val_main_v84 (F := Ideal) e))

/-! ## The reference's stages -/

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))
  (x6 : (⟨S_, .f32⟩ : BufTy).Contents (Elt Ideal))

/-- The first product is the sum over the contracted index. -/
theorem ref_product : val_main_v7 (F := Ideal) x0 x2 = rowsTimes x0 x2 := by
  funext i
  rw [val_main_v7_apply]
  refine Finset.sum_congr rfl fun k _ => ?_
  have el : lidx_main_v7 i k = inRow i k := funext fun a => by match a with | ⟨0, _⟩ => rfl | ⟨1, _⟩ => rfl
  have er : ridx_main_v7 i k = inCol i k := funext fun a => by match a with | ⟨0, _⟩ => rfl | ⟨1, _⟩ => rfl
  rw [el, er]

/-- The first collecting step. -/
theorem ref_collect : val_main_v43 (F := Ideal) x0 x1 x2 = collect x1 (val_main_v7 (F := Ideal) x0 x2) := rfl

/-- At the extended reals the float operations of one biased PReLU entry are the plain ones. -/
theorem prelu_ops (s z b : EReal) :
    Scalar.select (FloatOps.cmpf (F := Ideal) (φ := .f32) .oge (FloatOps.addf (F := Ideal) (φ := .f32) z b) (FloatOps.ofBits (F := Ideal) .f32 0x00000000#32))
      (FloatOps.addf (F := Ideal) (φ := .f32) z b) (FloatOps.mulf (F := Ideal) (φ := .f32) s (FloatOps.addf (F := Ideal) (φ := .f32) z b))
    = preluAt s z b := rfl

/-- The reference's two broadcasts of the first bias read it at the entry's column. -/
theorem bias_col (i : S100000x128.Idx) : idx_main_v44 (idx_main_v45 i) = colOf i :=
  funext fun a => by match a with | ⟨0, _⟩ => rfl
/-- Its broadcast of the slope reads the slope's one entry. -/
theorem slope_idx (i : S100000x128.Idx) : idx_main_v49 i = ValueIdx.ix0 := funext fun a => a.elim0

/-- The first bias and PReLU, entry by entry. -/
theorem ref_act : val_main_v51 (F := Ideal) x0 x1 x2 x3 x6 = biasPrelu (val_main_v43 (F := Ideal) x0 x1 x2) x3 (x6 ValueIdx.ix0) := by
  funext i
  rw [val_main_v51_apply, val_main_v48_apply, val_main_v50_apply, val_main_v46_apply, val_main_v45_apply, val_main_v44_apply,
    val_main_v47_apply, val_main_cst_9_apply, val_main_v49_apply, bias_col, slope_idx]
  exact prelu_ops _ _ _

/-- The second product. -/
theorem ref_product64 : val_main_v52 (F := Ideal) x0 x1 x2 x3 x4 x6 = rowsTimes64 (val_main_v51 (F := Ideal) x0 x1 x2 x3 x6) x4 := by
  funext i
  rw [val_main_v52_apply]
  refine Finset.sum_congr rfl fun k _ => ?_
  have el : lidx_main_v52 i k = inRow64 i k := funext fun a => by match a with | ⟨0, _⟩ => rfl | ⟨1, _⟩ => rfl
  have er : ridx_main_v52 i k = inCol64 i k := funext fun a => by match a with | ⟨0, _⟩ => rfl | ⟨1, _⟩ => rfl
  rw [el, er]

/-- The second collecting step. -/
theorem ref_collect64 : val_main_v88 (F := Ideal) x0 x1 x2 x3 x4 x6 = collect64 x1 (val_main_v52 (F := Ideal) x0 x1 x2 x3 x4 x6) := rfl

/-- The reference's two broadcasts of the second bias read it at the entry's column. -/
theorem bias_col64 (i : S100000x64.Idx) : idx_main_v89 (idx_main_v90 i) = colOf64 i :=
  funext fun a => by match a with | ⟨0, _⟩ => rfl
/-- Its second broadcast of the slope reads the slope's one entry. -/
theorem slope_idx64 (i : S100000x64.Idx) : idx_main_v94 i = ValueIdx.ix0 := funext fun a => a.elim0

/-- The second bias and PReLU, entry by entry. -/
theorem ref_act64 : val_main_v96 (F := Ideal) x0 x1 x2 x3 x4 x5 x6
    = biasPrelu64 (val_main_v88 (F := Ideal) x0 x1 x2 x3 x4 x6) x5 (x6 ValueIdx.ix0) := by
  funext i
  rw [val_main_v96_apply, val_main_v93_apply, val_main_v95_apply, val_main_v91_apply, val_main_v90_apply, val_main_v89_apply,
    val_main_v92_apply, val_main_cst_21_apply, val_main_v94_apply, bias_col64, slope_idx64]
  exact prelu_ops _ _ _

/-- THE REFERENCE's result: the two layers composed. -/
theorem reference_layers : val_main_v96 (F := Ideal) x0 x1 x2 x3 x4 x5 x6
    = biasPrelu64 (collect64 x1 (rowsTimes64 (biasPrelu (collect x1 (rowsTimes x0 x2)) x3 (x6 ValueIdx.ix0)) x4)) x5 (x6 ValueIdx.ix0) := by
  rw [ref_act64, ref_collect64, ref_product64, ref_act, ref_collect, ref_product]

end Cert.GraphConv

end
-- ==== Proof.Boundaries.lean ====
/-
  The kernel's host operations, read. The program's buffers at each boundary between segments are a fold through the
  segments from the launch memory; this module reads that fold at the buffers a later segment uses. Before the first
  launch the host builds, from the edge list alone, the sources and destinations with the self loops appended and the
  edge weights 1/sqrt(deg src · deg dst) — by the very operations the reference uses, so they ARE the reference's
  stages of the edge list —, reshapes the slope to 1 × 1 and converts the features and the first weights to bf16 (no
  change at the extended reals). Between the launches it applies the collecting step to the product a launch left, and
  reshapes a bias to one row. Everything else a later segment reads is kept by the segments in between.
-/
import proofs.«160520_j18957985644564_1_alg».proof.Proof.Gen.KernelIdeal.Frame
import proofs.«160520_j18957985644564_1_alg».proof.Proof.RefLayers
import Idealize.ShloMosaic.Lib.StableHlo.Run
import Idealize.ShloMosaic.Lib.Pipeline.Value

set_option maxRecDepth 16384

noncomputable section

namespace Cert.KernelIdeal.Layers

open Idealize.ShloMosaic Idealize.ShloMosaic.TcCoe Idealize.SL.Sem Idealize.ShloMosaic.StableHlo
open Idealize.ShloMosaic.Pipeline (Dat Cfg Window)
open Cert.KernelIdeal Cert.KernelIdeal.Gen Cert.GraphConv

variable (m : (ℓ : Loc nD τ sig) → Buf (Elt Ideal) ℓ) (ρ : Dev nD → PrngReg) (c : Dev nD)

/-- The edge list the program was launched with. -/
abbrev edges : (⟨Cert.ReferenceIdeal.S2x1600000, .i32⟩ : BufTy).Contents (Elt Ideal) := m ((c : Thread nD τ).loc main_arg1)

/-! ## Before the first launch -/

/-- The sources with the self loops appended. -/
theorem src_at3 : W3 m ρ c (Proc.devRef .tc main_v3) = Cert.ReferenceIdeal.ReadP.val_main_v3 (F := Ideal) (edges m c) := by
  show StableHlo.after hostOps0_2 (StableHlo.after hostOps0_1 (StableHlo.after hostOps0 (W0 m ρ c))) (Proc.devRef .tc main_v3) = _
  dsimp only [hostOps0, hostOps0_1, hostOps0_2]
  after_results_simp <;> rfl

/-- The destinations with the self loops appended. -/
theorem dst_at3 : W3 m ρ c (Proc.devRef .tc main_v6) = Cert.ReferenceIdeal.ReadP.val_main_v6 (F := Ideal) (edges m c) := by
  show StableHlo.after hostOps0_2 (StableHlo.after hostOps0_1 (StableHlo.after hostOps0 (W0 m ρ c))) (Proc.devRef .tc main_v6) = _
  dsimp only [hostOps0, hostOps0_1, hostOps0_2]
  after_results_simp <;> rfl

/-! The edge weights are read boundary by boundary: the degrees' test and inverse square roots after the first stretch,
    their `where` after the called function, the weights after the third stretch. -/

/-- Reads the host results that the one-pass reading leaves under an operand list. -/
local macro "read_operands" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

/-- Where a node's degree is positive. -/
theorem degpos_at1 : W1 m ρ c (Proc.devRef .tc main_v12) = Cert.ReferenceIdeal.ReadP.val_main_v13 (F := Ideal) (edges m c) := by
  show StableHlo.after hostOps0 (W0 m ρ c) (Proc.devRef .tc main_v12) = _
  dsimp only [hostOps0]
  after_results_simp
  read_operands
  rfl

/-- The inverse square roots of the degrees. -/
theorem invsqrt_at1 : W1 m ρ c (Proc.devRef .tc main_v13) = Cert.ReferenceIdeal.ReadP.val_main_v14 (F := Ideal) (edges m c) := by
  show StableHlo.after hostOps0 (W0 m ρ c) (Proc.devRef .tc main_v13) = _
  dsimp only [hostOps0]
  after_results_simp
  read_operands
  rfl

/-- The zero the `where` falls back to. -/
theorem zero_at1 : W1 m ρ c (Proc.devRef .tc main_cst_2) = Cert.ReferenceIdeal.ReadP.val_main_cst_2 (F := Ideal) := by
  show StableHlo.after hostOps0 (W0 m ρ c) (Proc.devRef .tc main_cst_2) = _
  dsimp only [hostOps0]
  after_results_simp <;> rfl

/-- The called `where`, read: its typed references only transport along type equations that hold by computation. -/
theorem where_read (a : (⟨S100000, .i1⟩ : BufTy).Contents (Elt Ideal)) (x : (⟨S100000, .f32⟩ : BufTy).Contents (Elt Ideal))
    (z : (⟨S_, .f32⟩ : BufTy).Contents (Elt Ideal)) :
    (TRef.of (sig := sig) (T := ⟨S100000, .f32⟩) main_v14).toBuf (Val := Elt Ideal)
      (select ((TRef.of (sig := sig) (T := ⟨S100000, .i1⟩) main_v12).ofBuf (Val := Elt Ideal) a)
        ((TRef.of (sig := sig) (T := ⟨S100000, .f32⟩) main_v13).ofBuf (Val := Elt Ideal) x)
        ((TRef.of (sig := sig) (T := ⟨S100000, .f32⟩) main_call0_v0).ofBuf (Val := Elt Ideal)
          ((TRef.of (sig := sig) (T := ⟨S100000, .f32⟩) main_call0_v0).toBuf (Val := Elt Ideal)
            (broadcastInDim S100000 ![] bcast_S_S100000
              ((TRef.of (sig := sig) (T := ⟨S_, .f32⟩) main_cst_2).ofBuf (Val := Elt Ideal) z)))))
      = select a x (broadcastInDim S100000 ![] bcast_S_S100000 z) := rfl

/-- The inverse square-root degrees, zero where the degree is not positive. -/
theorem dinv_at2 : W2 m ρ c (Proc.devRef .tc main_v14) = Cert.ReferenceIdeal.ReadP.val_main_v15 (F := Ideal) (edges m c) := by
  have h12 := degpos_at1 m ρ c
  have h13 := invsqrt_at1 m ρ c
  have h2 := zero_at1 m ρ c
  show StableHlo.after hostOps0_1 (W1 m ρ c) (Proc.devRef .tc main_v14) = _
  generalize W1 m ρ c = V1 at h12 h13 h2 ⊢
  dsimp only [hostOps0_1]
  after_results_simp
  rw [h12, h13, h2]
  exact where_read _ _ _

/-- The sources, as the third stretch finds them. -/
theorem src_at2 : W2 m ρ c (Proc.devRef .tc main_v3) = Cert.ReferenceIdeal.ReadP.val_main_v3 (F := Ideal) (edges m c) := by
  show StableHlo.after hostOps0_1 (StableHlo.after hostOps0 (W0 m ρ c)) (Proc.devRef .tc main_v3) = _
  dsimp only [hostOps0, hostOps0_1]
  after_results_simp
  read_operands
  rfl

/-- The destinations, as the third stretch finds them. -/
theorem dst_at2 : W2 m ρ c (Proc.devRef .tc main_v6) = Cert.ReferenceIdeal.ReadP.val_main_v6 (F := Ideal) (edges m c) := by
  show StableHlo.after hostOps0_1 (StableHlo.after hostOps0 (W0 m ρ c)) (Proc.devRef .tc main_v6) = _
  dsimp only [hostOps0, hostOps0_1]
  after_results_simp
  read_operands
  rfl

/-- The edge weights: the product of the two ends' inverse square-root degrees (zero where a degree is not positive). -/
theorem weight_at3 : W3 m ρ c (Proc.devRef .tc main_v29) = Cert.ReferenceIdeal.ReadP.val_main_v30 (F := Ideal) (edges m c) := by
  have h14 := dinv_at2 m ρ c
  have h3 := src_at2 m ρ c
  have h6 := dst_at2 m ρ c
  show StableHlo.after hostOps0_2 (W2 m ρ c) (Proc.devRef .tc main_v29) = _
  generalize W2 m ρ c = V2 at h14 h3 h6 ⊢
  dsimp only [hostOps0_2]
  after_results_simp
  rw [h14, h3, h6]
  rfl

/-- The slope, reshaped to 1 × 1. -/
theorem slope_at3 : W3 m ρ c (Proc.devRef .tc main_v30)
    = shapeCast S1x1 (m ((c : Thread nD τ).loc main_arg6)) shapeCasts_S_S1x1 := by
  show StableHlo.after hostOps0_2 (StableHlo.after hostOps0_1 (StableHlo.after hostOps0 (W0 m ρ c))) (Proc.devRef .tc main_v30) = _
  dsimp only [hostOps0, hostOps0_1, hostOps0_2]
  after_results_simp <;> rfl

/-- The features, converted: the same extended reals. -/
theorem left1_at3 : (W3 m ρ c (Proc.devRef .tc main_v31) : S100000x128.Idx → EReal) = m ((c : Thread nD τ).loc main_arg0) := by
  show StableHlo.after hostOps0_2 (StableHlo.after hostOps0_1 (StableHlo.after hostOps0 (W0 m ρ c))) (Proc.devRef .tc main_v31) = _
  dsimp only [hostOps0, hostOps0_1, hostOps0_2]
  after_results_simp <;> rfl

/-- The first weights, converted: the same extended reals. -/
theorem right1_at3 : (W3 m ρ c (Proc.devRef .tc main_v32) : S128x128.Idx → EReal) = m ((c : Thread nD τ).loc main_arg2) := by
  show StableHlo.after hostOps0_2 (StableHlo.after hostOps0_1 (StableHlo.after hostOps0 (W0 m ρ c))) (Proc.devRef .tc main_v32) = _
  dsimp only [hostOps0, hostOps0_1, hostOps0_2]
  after_results_simp <;> rfl

/-! ## What the segments in between keep -/

/-- The edge sources are not a window of the first launch. -/
theorem src_kept4 : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- Nor are the destinations. -/
theorem dst_kept4 : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- Nor are the edge weights. -/
theorem weight_kept4 : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

/-- No segment between the first launch's entry and the last collecting step writes the edge sources. -/
theorem src_kept8 : W8 m ρ c (Proc.devRef .tc main_v3) = W3 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by
      show StableHlo.after hostOps2 (W6 m ρ c) (Proc.devRef .tc main_v3) = _
      dsimp only [hostOps2]
      after_results_simp
    _ = W5 m ρ c (Proc.devRef .tc main_v3) := W6_of_ne m ρ c main_v3 (by decide)
    _ = W4 m ρ c (Proc.devRef .tc main_v3) := by
      show StableHlo.after hostOps1 (W4 m ρ c) (Proc.devRef .tc main_v3) = _
      dsimp only [hostOps1]
      after_results_simp
    _ = W3 m ρ c (Proc.devRef .tc main_v3) := W4_of_ne m ρ c main_v3 (by decide)

/-- Nor the destinations. -/
theorem dst_kept8 : W8 m ρ c (Proc.devRef .tc main_v6) = W3 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := by
      show StableHlo.after hostOps2 (W6 m ρ c) (Proc.devRef .tc main_v6) = _
      dsimp only [hostOps2]
      after_results_simp
    _ = W5 m ρ c (Proc.devRef .tc main_v6) := W6_of_ne m ρ c main_v6 (by decide)
    _ = W4 m ρ c (Proc.devRef .tc main_v6) := by
      show StableHlo.after hostOps1 (W4 m ρ c) (Proc.devRef .tc main_v6) = _
      dsimp only [hostOps1]
      after_results_simp
    _ = W3 m ρ c (Proc.devRef .tc main_v6) := W4_of_ne m ρ c main_v6 (by decide)

/-- Nor the edge weights. -/
theorem weight_kept8 : W8 m ρ c (Proc.devRef .tc main_v29) = W3 m ρ c (Proc.devRef .tc main_v29) :=
  calc W8 m ρ c (Proc.devRef .tc main_v29)
    _ = W7 m ρ c (Proc.devRef .tc main_v29) := W8_of_ne m ρ c main_v29 (by decide)
    _ = W6 m ρ c (Proc.devRef .tc main_v29) := by
      show StableHlo.after hostOps2 (W6 m ρ c) (Proc.devRef .tc main_v29) = _
      dsimp only [hostOps2]
      after_results_simp
    _ = W5 m ρ c (Proc.devRef .tc main_v29) := W6_of_ne m ρ c main_v29 (by decide)
    _ = W4 m ρ c (Proc.devRef .tc main_v29) := by
      show StableHlo.after hostOps1 (W4 m ρ c) (Proc.devRef .tc main_v29) = _
      dsimp only [hostOps1]
      after_results_simp
    _ = W3 m ρ c (Proc.devRef .tc main_v29) := W4_of_ne m ρ c main_v29 (by decide)

/-- The first bias is as launched when the second stretch of host operations reads it. -/
theorem bias1_kept4 : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := by
      show StableHlo.after hostOps0_2 (W2 m ρ c) (Proc.devRef .tc main_arg3) = _
      dsimp only [hostOps0_2]
      after_results_simp
    _ = W1 m ρ c (Proc.devRef .tc main_arg3) := by
      show StableHlo.after hostOps0_1 (W1 m ρ c) (Proc.devRef .tc main_arg3) = _
      dsimp only [hostOps0_1]
      after_results_simp
    _ = W0 m ρ c (Proc.devRef .tc main_arg3) := by
      show StableHlo.after hostOps0 (W0 m ρ c) (Proc.devRef .tc main_arg3) = _
      dsimp only [hostOps0]
      after_results_simp

/-- The second weight matrix is as launched when it is converted. -/
theorem weights2_kept6 : W6 m ρ c (Proc.devRef .tc main_arg4) = W0 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := by
      show StableHlo.after hostOps1 (W4 m ρ c) (Proc.devRef .tc main_arg4) = _
      dsimp only [hostOps1]
      after_results_simp
    _ = W3 m ρ c (Proc.devRef .tc main_arg4) := W4_of_ne m ρ c main_arg4 (by decide)
    _ = W2 m ρ c (Proc.devRef .tc main_arg4) := by
      show StableHlo.after hostOps0_2 (W2 m ρ c) (Proc.devRef .tc main_arg4) = _
      dsimp only [hostOps0_2]
      after_results_simp
    _ = W1 m ρ c (Proc.devRef .tc main_arg4) := by
      show StableHlo.after hostOps0_1 (W1 m ρ c) (Proc.devRef .tc main_arg4) = _
      dsimp only [hostOps0_1]
      after_results_simp
    _ = W0 m ρ c (Proc.devRef .tc main_arg4) := by
      show StableHlo.after hostOps0 (W0 m ρ c) (Proc.devRef .tc main_arg4) = _
      dsimp only [hostOps0]
      after_results_simp

/-- The second bias is as launched when the last stretch of host operations reads it. -/
theorem bias2_kept8 : W8 m ρ c (Proc.devRef .tc main_arg5) = W0 m ρ c (Proc.devRef .tc main_arg5) :=
  calc W8 m ρ c (Proc.devRef .tc main_arg5)
    _ = W7 m ρ c (Proc.devRef .tc main_arg5) := W8_of_ne m ρ c main_arg5 (by decide)
    _ = W6 m ρ c (Proc.devRef .tc main_arg5) := by
      show StableHlo.after hostOps2 (W6 m ρ c) (Proc.devRef .tc main_arg5) = _
      dsimp only [hostOps2]
      after_results_simp
    _ = W5 m ρ c (Proc.devRef .tc main_arg5) := W6_of_ne m ρ c main_arg5 (by decide)
    _ = W4 m ρ c (Proc.devRef .tc main_arg5) := by
      show StableHlo.after hostOps1 (W4 m ρ c) (Proc.devRef .tc main_arg5) = _
      dsimp only [hostOps1]
      after_results_simp
    _ = W3 m ρ c (Proc.devRef .tc main_arg5) := W4_of_ne m ρ c main_arg5 (by decide)
    _ = W2 m ρ c (Proc.devRef .tc main_arg5) := by
      show StableHlo.after hostOps0_2 (W2 m ρ c) (Proc.devRef .tc main_arg5) = _
      dsimp only [hostOps0_2]
      after_results_simp
    _ = W1 m ρ c (Proc.devRef .tc main_arg5) := by
      show StableHlo.after hostOps0_1 (W1 m ρ c) (Proc.devRef .tc main_arg5) = _
      dsimp only [hostOps0_1]
      after_results_simp
    _ = W0 m ρ c (Proc.devRef .tc main_arg5) := by
      show StableHlo.after hostOps0 (W0 m ρ c) (Proc.devRef .tc main_arg5) = _
      dsimp only [hostOps0]
      after_results_simp

/-- The slope's 1 × 1 array, written before the first launch, reaches the first PReLU launch. -/
theorem slope_kept5 : W5 m ρ c (Proc.devRef .tc main_v30) = W3 m ρ c (Proc.devRef .tc main_v30) :=
  calc W5 m ρ c (Proc.devRef .tc main_v30)
    _ = W4 m ρ c (Proc.devRef .tc main_v30) := by
      show StableHlo.after hostOps1 (W4 m ρ c) (Proc.devRef .tc main_v30) = _
      dsimp only [hostOps1]
      after_results_simp
    _ = W3 m ρ c (Proc.devRef .tc main_v30) := W4_of_ne m ρ c main_v30 (by decide)

/-- The first PReLU launch only reads the slope's array: no point writes that window back. -/
theorem slope_noflush : ∀ t : Fin cfg1.N, (cfg1.win 2).flush t = false :=
  (by decide +kernel : ∀ t : Fin grid1.N, win1_2.flush t = false)

/-- So the array leaves the launch as it entered. -/
theorem slope_through1 : W6 m ρ c (Proc.devRef .tc main_v30) = W5 m ρ c (Proc.devRef .tc main_v30) := by
  refine (W6_arr m ρ c 2).trans ?_
  funext i
  refine ((dat1 (V5 m ρ) c).arrAt_apply_of_forall_not_mem 2 cfg1.N i
    (fun t _ hf => absurd hf (by rw [slope_noflush t]; decide))).trans ?_
  rw [A_eq1]

/-- … and then the second PReLU launch. -/
theorem slope_kept9 : W9 m ρ c (Proc.devRef .tc main_v30) = W5 m ρ c (Proc.devRef .tc main_v30) :=
  calc W9 m ρ c (Proc.devRef .tc main_v30)
    _ = W8 m ρ c (Proc.devRef .tc main_v30) := by
      show StableHlo.after hostOps3 (W8 m ρ c) (Proc.devRef .tc main_v30) = _
      dsimp only [hostOps3]
      after_results_simp
    _ = W7 m ρ c (Proc.devRef .tc main_v30) := W8_of_ne m ρ c main_v30 (by decide)
    _ = W6 m ρ c (Proc.devRef .tc main_v30) := by
      show StableHlo.after hostOps2 (W6 m ρ c) (Proc.devRef .tc main_v30) = _
      dsimp only [hostOps2]
      after_results_simp
    _ = W5 m ρ c (Proc.devRef .tc main_v30) := slope_through1 m ρ c

/-! ## Between the launches -/

/-- After the first launch the host applies the collecting step to the product the launch left. -/
theorem collected_at5 : W5 m ρ c (Proc.devRef .tc main_v46) = collect (edges m c) (W4 m ρ c (Proc.devRef .tc main_v33)) := by
  show StableHlo.after hostOps1 (W4 m ρ c) (Proc.devRef .tc main_v46) = _
  dsimp only [hostOps1]
  after_results_simp
  rw [src_kept4, dst_kept4, weight_kept4, src_at3, dst_at3, weight_at3]
  rfl

/-- … and reshapes the first bias to one row. -/
theorem bias1_at5 : W5 m ρ c (Proc.devRef .tc main_v47)
    = shapeCast S1x128 (m ((c : Thread nD τ).loc main_arg3)) shapeCasts_S128_S1x128 := by
  show StableHlo.after hostOps1 (W4 m ρ c) (Proc.devRef .tc main_v47) = _
  dsimp only [hostOps1]
  after_results_simp
  rw [bias1_kept4]
  rfl

/-- After the first PReLU launch the host converts its result (the same extended reals) … -/
theorem left2_at7 : (W7 m ρ c (Proc.devRef .tc main_v49) : S100000x128.Idx → EReal) = W6 m ρ c (Proc.devRef .tc main_v48) := by
  show StableHlo.after hostOps2 (W6 m ρ c) (Proc.devRef .tc main_v49) = _
  dsimp only [hostOps2]
  after_results_simp <;> rfl

/-- … and the second weights. -/
theorem right2_at7 : (W7 m ρ c (Proc.devRef .tc main_v50) : S128x64.Idx → EReal) = m ((c : Thread nD τ).loc main_arg4) := by
  show StableHlo.after hostOps2 (W6 m ρ c) (Proc.devRef .tc main_v50) = _
  dsimp only [hostOps2]
  after_results_simp
  rw [weights2_kept6]
  rfl

/-- After the second product the host applies the collecting step again, 64 wide, with the same edge weights. -/
theorem collected_at9 : W9 m ρ c (Proc.devRef .tc main_v64) = collect64 (edges m c) (W8 m ρ c (Proc.devRef .tc main_v51)) := by
  show StableHlo.after hostOps3 (W8 m ρ c) (Proc.devRef .tc main_v64) = _
  dsimp only [hostOps3]
  after_results_simp
  rw [src_kept8, dst_kept8, weight_kept8, src_at3, dst_at3, weight_at3]
  rfl

/-- … and reshapes the second bias to one row. -/
theorem bias2_at9 : W9 m ρ c (Proc.devRef .tc main_v65)
    = shapeCast S1x64 (m ((c : Thread nD τ).loc main_arg5)) shapeCasts_S64_S1x64 := by
  show StableHlo.after hostOps3 (W8 m ρ c) (Proc.devRef .tc main_v65) = _
  dsimp only [hostOps3]
  after_results_simp
  rw [bias2_kept8]
  rfl

end Cert.KernelIdeal.Layers

end
-- ==== Proof.Bridge.lean ====
/-
  The kernel's result is the two layers of its arguments. The last boundary's value at the result buffer is what the
  fourth launch leaves: bias and PReLU of what the collecting step made of the third launch's product, whose left
  operand is what the second launch left: bias and PReLU of what the collecting step made of the first launch's
  product of the (converted) features and first weights. A conversion to bf16 changes nothing at the extended reals;
  a bias reshaped to one row is read at (0, c) as the bias at c, and the slope reshaped to 1 × 1 as the slope.
-/
import proofs.«160520_j18957985644564_1_alg».proof.Proof.Product1
import proofs.«160520_j18957985644564_1_alg».proof.Proof.Activation1
import proofs.«160520_j18957985644564_1_alg».proof.Proof.Product2
import proofs.«160520_j18957985644564_1_alg».proof.Proof.Activation2
import proofs.«160520_j18957985644564_1_alg».proof.Proof.Boundaries

set_option maxRecDepth 16384

noncomputable section

namespace Cert.KernelIdeal.Layers

open Idealize.ShloMosaic Idealize.ShloMosaic.TcCoe Idealize.SL.Sem
open Idealize.ShloMosaic.Pipeline (Dat Cfg Window)
open Cert.KernelIdeal Cert.KernelIdeal.Gen Cert.GraphConv

variable (m : (ℓ : Loc nD τ sig) → Buf (Elt Ideal) ℓ) (ρ : Dev nD → PrngReg) (c : Dev nD)

/-- The arguments as plain functions of their indices. -/
abbrev features : (⟨2, ![100000, 128]⟩ : Shape).Idx → EReal := m ((c : Thread nD τ).loc main_arg0)
abbrev weights1 : (⟨2, ![128, 128]⟩ : Shape).Idx → EReal := m ((c : Thread nD τ).loc main_arg2)
abbrev bias1 : (⟨1, ![128]⟩ : Shape).Idx → EReal := m ((c : Thread nD τ).loc main_arg3)
abbrev weights2 : (⟨2, ![128, 64]⟩ : Shape).Idx → EReal := m ((c : Thread nD τ).loc main_arg4)
abbrev bias2 : (⟨1, ![64]⟩ : Shape).Idx → EReal := m ((c : Thread nD τ).loc main_arg5)
abbrev slope : EReal := (m ((c : Thread nD τ).loc main_arg6) : (⟨0, ![]⟩ : Shape).Idx → EReal) ValueIdx.ix0

/-- The slope reshaped to 1 × 1, read at its one entry. -/
theorem slope_read : shapeCast S1x1 (m ((c : Thread nD τ).loc main_arg6)) shapeCasts_S_S1x1 origin11 = slope m c :=
  shapeCast_apply _ _ origin11 ValueIdx.ix0 (by
    rw [Shape.rowMajor_val_two]
    show (Shape.rowMajorPi _ _).val = 0 * 1 + 0
    rw [Shape.rowMajorPi_zero])

/-- The first launch leaves the product of the features and the first weights. -/
theorem product1_eq : W4 m ρ c (Proc.devRef .tc main_v33) = rowsTimes (features m c) (weights1 m c) := by
  refine (W4_arr m ρ c 2).trans ?_
  rw [final0 (V3 m ρ) c]
  have hl : leftIn0 (V3 m ρ) c = features m c := left1_at3 m ρ c
  have hr : rightIn0 (V3 m ρ) c = weights1 m c := right1_at3 m ρ c
  rw [hl, hr]

/-- The host then collects it along the edges. -/
theorem collected1_eq : W5 m ρ c (Proc.devRef .tc main_v46)
    = collect (edges m c) (rowsTimes (features m c) (weights1 m c)) := by
  rw [collected_at5, product1_eq]

/-- The second launch leaves the first layer's output. -/
theorem layer1_eq : W6 m ρ c (Proc.devRef .tc main_v48)
    = biasPrelu (collect (edges m c) (rowsTimes (features m c) (weights1 m c))) (bias1 m c) (slope m c) := by
  refine (W6_arr m ρ c 3).trans ?_
  rw [final1 (V5 m ρ) c]
  have ha : actIn1 (V5 m ρ) c = collect (edges m c) (rowsTimes (features m c) (weights1 m c)) := collected1_eq m ρ c
  have hb : (fun q => biasIn1 (V5 m ρ) c (atRow0 q)) = bias1 m c := by
    funext q
    show W5 m ρ c (Proc.devRef .tc main_v47) (atRow0 q) = _
    rw [bias1_at5]
    exact shapeCast_apply _ _ (atRow0 q) q (by
      rw [Shape.rowMajor_val_one, Shape.rowMajor_val_two]; show (q 0).val = 0 * 128 + (q 0).val; omega)
  have hs : slopeIn1 (V5 m ρ) c origin11 = slope m c := by
    show W5 m ρ c (Proc.devRef .tc main_v30) origin11 = _
    rw [slope_kept5, slope_at3]
    exact slope_read m c
  rw [ha, hb, hs]

/-- The third launch leaves the product of that output and the second weights. -/
theorem product2_eq : W8 m ρ c (Proc.devRef .tc main_v51)
    = rowsTimes64 (biasPrelu (collect (edges m c) (rowsTimes (features m c) (weights1 m c))) (bias1 m c) (slope m c)) (weights2 m c) := by
  refine (W8_arr m ρ c 2).trans ?_
  rw [final2 (V7 m ρ) c]
  have hl : leftIn2 (V7 m ρ) c
      = biasPrelu (collect (edges m c) (rowsTimes (features m c) (weights1 m c))) (bias1 m c) (slope m c) :=
    (left2_at7 m ρ c).trans (layer1_eq m ρ c)
  have hr : rightIn2 (V7 m ρ) c = weights2 m c := right2_at7 m ρ c
  rw [hl, hr]

/-- The host collects again. -/
theorem collected2_eq : W9 m ρ c (Proc.devRef .tc main_v64)
    = collect64 (edges m c) (rowsTimes64 (biasPrelu (collect (edges m c) (rowsTimes (features m c) (weights1 m c))) (bias1 m c) (slope m c)) (weights2 m c)) := by
  rw [collected_at9, product2_eq]

/-- THE RESULT: the fourth launch leaves the second layer's output. -/
theorem result_eq : W10 m ρ c (Proc.devRef .tc main_v66)
    = biasPrelu64 (collect64 (edges m c) (rowsTimes64 (biasPrelu (collect (edges m c) (rowsTimes (features m c) (weights1 m c))) (bias1 m c) (slope m c)) (weights2 m c)))
        (bias2 m c) (slope m c) := by
  refine (W10_arr m ρ c 3).trans ?_
  rw [final3 (V9 m ρ) c]
  have ha : actIn3 (V9 m ρ) c
      = collect64 (edges m c) (rowsTimes64 (biasPrelu (collect (edges m c) (rowsTimes (features m c) (weights1 m c))) (bias1 m c) (slope m c)) (weights2 m c)) :=
    collected2_eq m ρ c
  have hb : (fun q => biasIn3 (V9 m ρ) c (atRow0b q)) = bias2 m c := by
    funext q
    show W9 m ρ c (Proc.devRef .tc main_v65) (atRow0b q) = _
    rw [bias2_at9]
    exact shapeCast_apply _ _ (atRow0b q) q (by
      rw [Shape.rowMajor_val_one, Shape.rowMajor_val_two]; show (q 0).val = 0 * 64 + (q 0).val; omega)
  have hs : slopeIn3 (V9 m ρ) c origin11b = slope m c := by
    show W9 m ρ c (Proc.devRef .tc main_v30) origin11b = _
    rw [slope_kept9, slope_kept5, slope_at3]
    exact slope_read m c
  rw [ha, hb, hs]

end Cert.KernelIdeal.Layers

end
-- ==== Proof.lean ====
/-
  Two graph-convolution layers (GCN with self loops and symmetric normalisation, PReLU after each), a Pallas kernel
  program against its jnp reference, at the extended reals.

  Both programs build from the edge list, by the same host operations, the sources and destinations with the self loops
  appended and the edge weights 1/sqrt(deg src · deg dst); both then compute, per layer,
      PReLU_slope ( collect ( h · W ) + b ),
  where `collect` gathers for every edge the source's row, scales it by the edge's weight and adds it into the
  destination's row. The reference does every step on the host. The kernel program computes h · W in a launch tiled
  over ten blocks of 10000 rows (operands converted to bf16, accumulated from zero in f32) and the bias-and-PReLU step
  in a second launch tiled the same way, and leaves `collect` to the same host operations as the reference.

  At the extended reals a conversion between float formats is the identity and a product accumulated from zero is the
  sum of the products, so each launch leaves, block by block, exactly the rows of the whole-array function the reference
  applies (Product1/2, Activation1/2: what a grid point writes back is its block of that function; the ten blocks tile
  the rows). Reading the host operations between the launches (Boundaries) and composing (Bridge) gives the kernel's
  result as the same term of the arguments as the reference's (RefLayers). No law of real arithmetic beyond 0 + x = x
  is used, so nothing is asked of the inputs: the precondition is never opened.

  `preserves` is `True`: the idealization rewrote no operation. The word-level program's frame and the idealized
  program's are the generated ones; the reference's frame is its run with the result dropped.
-/
import proofs.«160520_j18957985644564_1_alg».proof.Defs
import proofs.«160520_j18957985644564_1_alg».proof.Proof.Gen.Kernel
import proofs.«160520_j18957985644564_1_alg».proof.Proof.Gen.Kernel.Frame
import proofs.«160520_j18957985644564_1_alg».proof.Proof.Gen.KernelIdeal
import proofs.«160520_j18957985644564_1_alg».proof.Proof.Gen.KernelIdeal.Frame
import proofs.«160520_j18957985644564_1_alg».proof.Proof.Gen.ReferenceIdeal
import proofs.«160520_j18957985644564_1_alg».proof.Proof.Gen.Pre_finite_inputs
import proofs.«160520_j18957985644564_1_alg».proof.Proof.KernelRun
import proofs.«160520_j18957985644564_1_alg».proof.Proof.Bridge
import proofs.«160520_j18957985644564_1_alg».proof.Proof.RefLayers
import Idealize.ShloMosaic.Adequacy
import Idealize.ShloMosaic.Init

noncomputable section

namespace Cert.Proof

open Idealize.ShloMosaic Idealize.SL.Sem

/-- The word-level program runs and keeps its arguments. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the two layers of the arguments in their result. -/
theorem algebraic : Cert.algebraic_KernelIdeal_ReferenceIdeal := by
  intro m ρ m' ρ' _ hagree
  refine ⟨fun c => _, (θ_run Cert.KernelIdeal.defs _ _).mono
    (fun _ h c => ⟨(h c).1.trans (Cert.KernelIdeal.Layers.result_eq m ρ c), (h c).2⟩) (Cert.KernelIdeal.Layers.run_result m ρ), ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6⟩ := hagree c
  rw [Cert.ReferenceIdeal.ReadP.val_main_v96_eq, Cert.GraphConv.reference_layers, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
